-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) (main_arg3 : IVec S4096x4096 1) (main_arg4 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 36
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096, .i32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | .hbm, ⟨11, _⟩ => ⟨S1x4096, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S1x1, .i32⟩
  | .hbm, ⟨25, _⟩ => ⟨S4096x1, .i32⟩
  | .hbm, ⟨26, _⟩ => ⟨S4096x1, .i1⟩
  | .hbm, ⟨27, _⟩ => ⟨S4096x1, .i1⟩
  | .hbm, ⟨28, _⟩ => ⟨S_, .i1⟩
  | .hbm, ⟨29, _⟩ => ⟨S4096, .i1⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v4 : Ref sig .tc := ⟨.hbm, 34, rfl⟩
abbrev main_v5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_1 : S4096.BroadcastsInDim S4096x4096 (![1] : Fin 1 → Fin S4096x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  gather_S4096x4096_S4096x1_S4096x4096_0_1_n_n_1_1_40961_wf : GatherDims.WF S4096x4096 S4096x1 S4096x4096 [0] [1] [] [1] [] 1 ![4096, 1]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x4096.size a
  hwx0_4 : ∀ i : grid0.Coords, EltTy.bits .f32 = 32 ∨ (Rect.block (s := S4096x4096) S512x1024.size (cc0_transform_4 i) (hinb0_4 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096, .i32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S1, .i32⟩
  | .hbm, ⟨26, _⟩ => ⟨S_, .i32⟩
  | .hbm, ⟨27, _⟩ => ⟨S4096x1, .i32⟩
  | .hbm, ⟨28, _⟩ => ⟨S4096x1, .i1⟩
  | .hbm, ⟨29, _⟩ => ⟨S1x1, .i32⟩
  | .hbm, ⟨30, _⟩ => ⟨S4096x1, .i32⟩
  | .hbm, ⟨31, _⟩ => ⟨S4096x1, .i1⟩
  | .hbm, ⟨32, _⟩ => ⟨S4096x1, .i1⟩
  | .hbm, ⟨33, _⟩ => ⟨S_, .i1⟩
  | .hbm, ⟨34, _⟩ => ⟨S4096, .i1⟩
  | .hbm, ⟨35, _⟩ => ⟨S4096x4096, .f32⟩
  | .hbm, ⟨36, _⟩ => ⟨S4096x4096, .i1⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_v6 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_v14 : Ref sig .tc := ⟨.hbm, 36, rfl⟩
abbrev main_call2_cst : Ref sig .tc := ⟨.hbm, 37, rfl⟩
abbrev main_call2_v15 : Ref sig .tc := ⟨.hbm, 38, rfl⟩
abbrev main_v7 : Ref sig .tc := ⟨.hbm, 39, rfl⟩
abbrev main_v8 : Ref sig .tc := ⟨.hbm, 40, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_1 : S4096.BroadcastsInDim S4096x4096 (![1] : Fin 1 → Fin S4096x4096.rank)
  dot_S4096x4096_S4096x4096_S4096x4096_1_0_0_1_n_n_wf : DotDims.WF S4096x4096 S4096x4096 S4096x4096 [1] [0] [0] [1] [] []
  gather_S4096x4096_S4096x1_S4096x4096_0_1_n_n_1_1_40961_wf : GatherDims.WF S4096x4096 S4096x1 S4096x4096 [0] [1] [] [1] [] 1 ![4096, 1]

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf

class Facts : Prop extends Facts₀ where

variable [Facts]
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.Spec.lean ====
/-
  The masked linear layer with a gathered residual, entry by entry.

  For a batch matrix x (4096 × 4096), a weight matrix w (rows = output features, columns = input features), a bias row b,
  and a residual matrix tk of the output's shape, entry (i, j) of the result is

      max (∑ₖ x(i, k) · w(j, k) + b(j), 0) + tk(i, j)

  over the extended reals: row i of x against row j of w (the product x · wᵀ), the bias added, negative values cut
  at zero, the residual added on top. The zero is kept as the value its float word denotes; it is the same word
  wherever it occurs and is never evaluated.
-/
import Idealize.ShloMosaic.Lib.ValueIdx
import Idealize.ShloMosaic.PureOps.Ideal

noncomputable section

open scoped BigOperators

namespace MaskedLinear

open Idealize.ShloMosaic Idealize.ShloMosaic.ValueIdx

/-- The square 4096 × 4096 shape of the batch, the weights, the residual and the result. -/
abbrev SQ : Shape := ⟨2, ![4096, 4096]⟩
/-- The bias as a one-row matrix. -/
abbrev SRow : Shape := ⟨2, ![1, 4096]⟩

/-- The value the zero word of the cut denotes. -/
abbrev zeroWord : EReal := Ideal.ofBits .f32 0x00000000#32

/-- Entry (i, j): row i of `a` against row j of `wm`, plus the bias at j, cut at zero, plus the residual at (i, j). -/
def entry (a wm : SQ.Idx → EReal) (b2 : SRow.Idx → EReal) (tk : SQ.Idx → EReal) (i j : Fin 4096) : EReal :=
  max ((∑ k : Fin 4096, a (ix2 i k) * wm (ix2 j k)) + b2 (ix2 (0 : Fin 1) j)) zeroWord + tk (ix2 i j)

/-- The whole result array. -/
def out (a wm : SQ.Idx → EReal) (b2 : SRow.Idx → EReal) (tk : SQ.Idx → EReal) : SQ.Idx → EReal :=
  fun ij => entry a wm b2 tk (ij 0) (ij 1)

theorem out_ix2 (a wm : SQ.Idx → EReal) (b2 : SRow.Idx → EReal) (tk : SQ.Idx → EReal) (i j : Fin 4096) :
    out a wm b2 tk (ix2 i j) = entry a wm b2 tk i j := rfl

end MaskedLinear

end
-- ==== Proof.KernelBody.lean ====
/-
  What the kernel body stores, read at one entry of its 512 × 1024 output block.

  The body multiplies its 512 × 4096 block of the batch by the transpose of its 1024 × 4096 block of the masked weights
  (both contract their last axis), adds the bias row, cuts at zero and adds its block of the residual. So entry (p, q)
  of what it stores is max (∑ₖ x₀(p, k) · x₁(q, k) + x₂(0, q), 0) + x₃(p, q).
-/
import proofs.«130809_j54975581388937_1_alg».proof.Proof.Gen.KernelIdeal.Skeleton
import proofs.«130809_j54975581388937_1_alg».proof.Proof.LibRowDot
import proofs.«130809_j54975581388937_1_alg».proof.Proof.Spec
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- Entry (p, q) of the stored block, from the four loaded blocks. -/
theorem stored_apply (x0 : FVec Ideal S512x4096 .bf16) (x1 : FVec Ideal S1024x4096 .bf16) (x2 : FVec Ideal S1x1024 .f32)
    (x3 : FVec Ideal S512x1024 .f32) (p : Fin 512) (q : Fin 1024) :
    k0_pay1 (F := Ideal) x0 x1 x2 x3 (ix2 p q)
      = max ((∑ k : Fin 4096, x0 (ix2 p k) * x1 (ix2 q k)) + x2 (ix2 (0 : Fin 1) q)) MaskedLinear.zeroWord + x3 (ix2 p q) := by
  unfold k0_pay1
  simp only [shapeCast_self]
  rw [addf_apply, maximumf_apply, addf_apply, broadcast_apply,
    RowDot.matmul_zero_apply dot_S512x4096_S1024x4096_S512x1024_1_1_0_0_n_n rfl rfl rfl rfl rfl rfl none x0 x1 p q,
    broadcastTo_1b_ab_apply]
  rfl

/-- The stored block against the whole result: when the four loaded blocks are the blocks of four arrays `a`, `wm`, `b2`,
    `tk` at row offset `r0 · 512` and column offset `c0 · 1024` — the batch's rows, the weights' rows at the COLUMN
    offset (the product is with the transpose), the bias's columns, the residual's tile — entry `y` of what the body
    stores is the result's entry at the offset position. -/
theorem stored_eq_out (a wm : MaskedLinear.SQ.Idx → EReal) (b2 : MaskedLinear.SRow.Idx → EReal) (tk : MaskedLinear.SQ.Idx → EReal)
    (x0 : FVec Ideal S512x4096 .bf16) (x1 : FVec Ideal S1024x4096 .bf16) (x2 : FVec Ideal S1x1024 .f32)
    (x3 : FVec Ideal S512x1024 .f32) (r0 c0 : Nat)
    (h0 : ∀ (x : S512x4096.Idx) (i : MaskedLinear.SQ.Idx), (i 0).val = r0 * 512 + (x 0).val → (i 1).val = (x 1).val → x0 x = a i)
    (h1 : ∀ (x : S1024x4096.Idx) (i : MaskedLinear.SQ.Idx), (i 0).val = c0 * 1024 + (x 0).val → (i 1).val = (x 1).val → x1 x = wm i)
    (h2 : ∀ (x : S1x1024.Idx) (i : MaskedLinear.SRow.Idx), (i 1).val = c0 * 1024 + (x 1).val → x2 x = b2 i)
    (h3 : ∀ (x : S512x1024.Idx) (i : MaskedLinear.SQ.Idx), (i 0).val = r0 * 512 + (x 0).val → (i 1).val = c0 * 1024 + (x 1).val → x3 x = tk i)
    (y : S512x1024.Idx) (i : MaskedLinear.SQ.Idx)
    (hi0 : (i 0).val = r0 * 512 + (y 0).val) (hi1 : (i 1).val = c0 * 1024 + (y 1).val) :
    k0_pay1 (F := Ideal) x0 x1 x2 x3 y = MaskedLinear.out a wm b2 tk i := by
  obtain ⟨p, q, rfl⟩ : ∃ (p : Fin 512) (q : Fin 1024), y = ix2 p q := ⟨y 0, y 1, eq_ix2 y⟩
  obtain ⟨i', j', rfl⟩ : ∃ (i' j' : Fin 4096), i = ix2 i' j' := ⟨i 0, i 1, eq_ix2 i⟩
  rw [stored_apply, MaskedLinear.out_ix2]
  unfold MaskedLinear.entry
  rw [h2 (ix2 (0 : Fin 1) q) (ix2 (0 : Fin 1) j') hi1, h3 (ix2 p q) (ix2 i' j') hi0 hi1]
  refine congrArg (fun s => max (s + b2 (ix2 (0 : Fin 1) j')) MaskedLinear.zeroWord + tk (ix2 i' j')) ?_
  exact Finset.sum_congr rfl fun k _ => by rw [h0 (ix2 p k) (ix2 i' k) hi0 rfl, h1 (ix2 q k) (ix2 j' k) hi1 rfl]

end Cert.KernelIdeal.Body

end
-- ==== Proof.KernelArray.lean ====
/-
  From the kernel's blocks to its whole result array.

  The grid has 4 × 8 points; point (nj, mi) reads rows mi·512 … of the batch, rows nj·1024 … of the masked weights,
  columns nj·1024 … of the bias row and the (mi, nj) tile of the residual, and writes the (mi, nj) tile of the result.
  Each stored tile is the tile of one whole-array function of the four arrays the windows read, and the 32 tiles cover
  the 4096 × 4096 result, so after the run the result array is that function.
-/
import proofs.«130809_j54975581388937_1_alg».proof.Proof.Gen.KernelIdeal.Value
import proofs.«130809_j54975581388937_1_alg».proof.Proof.KernelBody
import Idealize.ShloMosaic.Lib.Pipeline.Value

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The index maps, decided over the 32 points: the batch's block row is the result's, the weights' block row is the
    result's block COLUMN, the bias's block column is the result's, the residual's tile is the result's; the second
    block coordinate of the batch and of the weights, and the bias's first, are 0. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = win0_4.index t (0 : Fin 2) ∧ win0_3.index t (1 : Fin 2) = win0_4.index t (1 : Fin 2) :=
  (by decide +kernel : ∀ t : Fin grid0.N, _)

/-- Every tile of the 8 × 4 tiling is some point's. -/
theorem idx_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- The batch window's block at point `t`: rows of its array from the result's row offset. -/
theorem batch_block (c : Dev nD) (t : Fin cfg0.N) (x : S512x4096.Idx) (i : S4096x4096.Idx)
    (h0 : (i 0).val = win0_4.index t (0 : Fin 2) * 512 + (x 0).val) (h1 : (i 1).val = (x 1).val) :
    (iblk m c 0 t : Vec Ideal S512x4096 .bf16) x = (V m c main_v2 : S4096x4096.Idx → Ideal .bf16) i := by
  obtain ⟨e00, e01, -⟩ := idx_facts t
  unfold iblk
  rw [View.read_apply]
  show V m c main_v2 _ = V m c main_v2 _
  refine congrArg _ (funext fun a => Fin.ext ?_)
  match a with
  | ⟨0, _⟩ => show win0_0.index t (0 : Fin 2) * 512 + 1 * (x 0).val = (i 0).val; omega
  | ⟨1, _⟩ => show win0_0.index t (1 : Fin 2) * 4096 + 1 * (x 1).val = (i 1).val; omega

/-- The weight window's block at point `t`: rows of its array from the result's COLUMN offset. -/
theorem weights_block (c : Dev nD) (t : Fin cfg0.N) (x : S1024x4096.Idx) (i : S4096x4096.Idx)
    (h0 : (i 0).val = win0_4.index t (1 : Fin 2) * 1024 + (x 0).val) (h1 : (i 1).val = (x 1).val) :
    (iblk m c 1 t : Vec Ideal S1024x4096 .bf16) x = (V m c main_v1 : S4096x4096.Idx → Ideal .bf16) i := by
  obtain ⟨-, -, e10, e11, -⟩ := idx_facts t
  unfold iblk
  rw [View.read_apply]
  show V m c main_v1 _ = V m c main_v1 _
  refine congrArg _ (funext fun a => Fin.ext ?_)
  match a with
  | ⟨0, _⟩ => show win0_1.index t (0 : Fin 2) * 1024 + 1 * (x 0).val = (i 0).val; omega
  | ⟨1, _⟩ => show win0_1.index t (1 : Fin 2) * 4096 + 1 * (x 1).val = (i 1).val; omega

/-- The bias window's block at point `t`: columns of the one row from the result's column offset. -/
theorem bias_block (c : Dev nD) (t : Fin cfg0.N) (x : S1x1024.Idx) (i : S1x4096.Idx)
    (h1 : (i 1).val = win0_4.index t (1 : Fin 2) * 1024 + (x 1).val) :
    (iblk m c 2 t : Vec Ideal S1x1024 .f32) x = (V m c main_v3 : S1x4096.Idx → Ideal .f32) i := by
  obtain ⟨-, -, -, -, e20, e21, -⟩ := idx_facts t
  have hx : (x 0).val < 1 := (x 0).isLt
  have hi : (i 0).val < 1 := (i 0).isLt
  unfold iblk
  rw [View.read_apply]
  show V m c main_v3 _ = V m c main_v3 _
  refine congrArg _ (funext fun a => Fin.ext ?_)
  match a with
  | ⟨0, _⟩ => show win0_2.index t (0 : Fin 2) * 1 + 1 * (x 0).val = (i 0).val; omega
  | ⟨1, _⟩ => show win0_2.index t (1 : Fin 2) * 1024 + 1 * (x 1).val = (i 1).val; omega

/-- The residual window's block at point `t`: the result's tile of its array. -/
theorem residual_block (c : Dev nD) (t : Fin cfg0.N) (x : S512x1024.Idx) (i : S4096x4096.Idx)
    (h0 : (i 0).val = win0_4.index t (0 : Fin 2) * 512 + (x 0).val)
    (h1 : (i 1).val = win0_4.index t (1 : Fin 2) * 1024 + (x 1).val) :
    (iblk m c 3 t : Vec Ideal S512x1024 .f32) x = (V m c main_v4 : S4096x4096.Idx → Ideal .f32) i := by
  obtain ⟨-, -, -, -, -, -, e30, e31⟩ := idx_facts t
  unfold iblk
  rw [View.read_apply]
  show V m c main_v4 _ = V m c main_v4 _
  refine congrArg _ (funext fun a => Fin.ext ?_)
  match a with
  | ⟨0, _⟩ => show win0_3.index t (0 : Fin 2) * 512 + 1 * (x 0).val = (i 0).val; omega
  | ⟨1, _⟩ => show win0_3.index t (1 : Fin 2) * 1024 + 1 * (x 1).val = (i 1).val; omega

/-- The result as one function of the four arrays the windows read. -/
abbrev whole (c : Dev nD) : S4096x4096.Idx → EReal :=
  MaskedLinear.out (V m c main_v2) (V m c main_v1) (V m c main_v3) (V m c main_v4)

/-- What point `t` writes back is tile `t` of `whole`. -/
theorem flushed_eq (c : Dev nD) (t : Fin cfg0.N) :
    (dats m 0 c).flushed 4 t = ((cfg0.win 4).blk t).view.read (Elt Ideal) (whole m c) := by
  rw [flushed4]
  unfold out0_4
  rw [View.canon_unit_zero hz]
  simp only [View.ld_unit_zero (S := S512x4096) hz, View.ld_unit_zero (S := S1024x4096) hz, View.ld_unit_zero (S := S1x1024) hz,
    View.ld_unit_zero (S := S512x1024) hz]
  funext y
  rw [View.read_apply]
  show k0_pay1 (iblk m c 0 t) (iblk m c 1 t) (iblk m c 2 t) (iblk m c 3 t) y = whole m c (((cfg0.win 4).blk t).view.emb y)
  exact Body.stored_eq_out (V m c main_v2) (V m c main_v1) (V m c main_v3) (V m c main_v4)
    (iblk m c 0 t) (iblk m c 1 t) (iblk m c 2 t) (iblk m c 3 t) (win0_4.index t (0 : Fin 2)) (win0_4.index t (1 : Fin 2))
    (fun x i h0 h1 => batch_block m c t x i h0 h1) (fun x i h0 h1 => weights_block m c t x i h0 h1)
    (fun x i h1 => bias_block m c t x i h1) (fun x i h0 h1 => residual_block m c t x i h0 h1)
    y (((cfg0.win 4).blk t).view.emb y)
    (show win0_4.index t (0 : Fin 2) * 512 + 1 * (y 0).val = win0_4.index t (0 : Fin 2) * 512 + (y 0).val by omega)
    (show win0_4.index t (1 : Fin 2) * 1024 + 1 * (y 1).val = win0_4.index t (1 : Fin 2) * 1024 + (y 1).val by omega)

/-- An index of the result is in point `t`'s tile iff each coordinate is in the tile's range on its axis. -/
theorem mem_blk (t : Fin cfg0.N) (i : S4096x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5).slice (win0_4.rect t)).set ↔ _
  rw [View.set_slice_whole, Rect.mem_set_unit]
  exact Iff.rfl

/-- Every index of the result is in some point's tile: the one at (row / 512, column / 1024). -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The result array after the run. -/
theorem final (c : Dev nD) : (dats m 0 c).arrAt 4 cfg0.N = whole m c :=
  (dats m 0 c).arrAt_eq_of_cover 4 (whole m c) (fun t _ => flushed_eq m c t) cover

/-- The run, read: the result array at `whole`, the arguments unchanged. -/
theorem run : θ_run defs (onTc (τ := τ) (main (F := Ideal))) ⟨m, fun _ => 0, ρ⟩ fun r => ∀ c : Dev nD,
      r.2.mem ((c : Thread nD τ).loc main_v5) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.TakeSpec.lean ====
/-
  Taking columns of a matrix by an index row, as both programs compute it.

  For a 4096 × 4096 matrix x and a row rc of 4096 signed integers, `takeCols x rc` is the matrix whose column j is
  column rc(j) of x: a negative index first counts from the end (rc(j) + 4096), the column is gathered at the
  resulting position, and a column whose position is outside 0 … 4095 is filled with the value the fill word
  denotes. It is one composed term of the host operations, over any float values; the two programs apply this same
  term to the same arguments, and nothing here looks inside it.
-/
import proofs.«130809_j54975581388937_1_alg».proof.Proof.Spec

noncomputable section

namespace MaskedLinear

open Idealize.ShloMosaic

/-- A row of 4096 entries. -/
abbrev SVec : Shape := ⟨1, ![4096]⟩
/-- The same entries as a column of start indices. -/
abbrev SCol : Shape := ⟨2, ![4096, 1]⟩
/-- A scalar. -/
abbrev SNil : Shape := ⟨0, ![]⟩
abbrev SOne : Shape := ⟨1, ![1]⟩
abbrev SOneOne : Shape := ⟨2, ![1, 1]⟩

/-! The shape relations the operations take, each decided. -/

theorem nil_vec : SNil.BroadcastsInDim SVec (![] : Fin 0 → Fin SVec.rank) := by decide
theorem vec_col : SVec.BroadcastsInDim SCol (![0] : Fin 1 → Fin SCol.rank) := by decide
theorem nil_col : SNil.BroadcastsInDim SCol (![] : Fin 0 → Fin SCol.rank) := by decide
theorem one_oneone : SOne.BroadcastsInDim SOneOne (![1] : Fin 1 → Fin SOneOne.rank) := by decide
theorem oneone_col : SOneOne.BroadcastsInDim SCol (![0, 1] : Fin 2 → Fin SCol.rank) := by decide
theorem col_reduces : SCol.ReducesTo [1] SVec := by decide
theorem nil_pos : 0 < SNil.numel := by decide
theorem vec_sq : SVec.BroadcastsInDim SQ (![1] : Fin 1 → Fin SQ.rank) := by decide
theorem nil_sq : SNil.BroadcastsInDim SQ (![] : Fin 0 → Fin SQ.rank) := by decide
theorem gather_wf : GatherDims.WF SQ SCol SQ [0] [1] [] [1] [] 1 ![4096, 1] := by decide

/-- The gather's dimension numbers: whole columns (axis 0 kept, axis 1 collapsed), one start index per result column,
    addressing axis 1 of the operand. -/
def colGather : GatherDims SQ SCol SQ where
  offsetDims := [0]
  collapsedSliceDims := [1]
  operandBatchingDims := []
  startIndicesBatchingDims := []
  startIndexMap := [1]
  indexVectorDim := 1
  sliceSizes := ![4096, 1]
  wf := gather_wf

/-- A negative index counts from the end: rc(j) + 4096 where rc(j) < 0, rc(j) otherwise. -/
def wrapped (rc : IVec SVec 32) : IVec SVec 32 :=
  select (cmpi .slt rc (broadcastInDim SVec ![] nil_vec (constantI SNil 32 0#32)))
    (addi rc (broadcastInDim SVec ![] nil_vec (constantI SNil 32 4096#32))) rc

/-- The wrapped indices as the gather's column of start indices. -/
def startCol (rc : IVec SVec 32) : IVec SCol 32 := broadcastInDim SCol ![0] vec_col (wrapped rc)

/-- Which result columns have their position inside 0 … 4095. -/
def inRange (rc : IVec SVec 32) : IVec SVec 1 :=
  Host.reduce IntOp.andi
    (andi (cmpi .sge (startCol rc) (broadcastInDim SCol ![] nil_col (constantI SNil 32 0#32)))
      (cmpi .sle (startCol rc)
        (broadcastInDim SCol ![0, 1] oneone_col (broadcastInDim SOneOne ![1] one_oneone (constantI SOne 32 4095#32)))))
    (constantI SNil 1 1#1) col_reduces nil_pos

variable {F : FTy → Type} [FloatOps F]

/-- Column j of the result is column `wrapped rc j` of x where that position is in range, the fill value elsewhere. -/
def takeCols (x : FVec F SQ .f32) (rc : IVec SVec 32) : FVec F SQ .f32 :=
  select (broadcastInDim SQ ![1] vec_sq (inRange rc)) (Host.gather colGather x (startCol rc))
    (broadcastInDim SQ ![] nil_sq (constant (F := F) SNil .f32 0x7FC00000#32))

end MaskedLinear

end
-- ==== Proof.KernelHost.lean ====
/-
  The four arrays the kernel's windows read, as the region finds them.

  Before the region the host program rounds the batch to the narrow float format, masks the weights (the weight where
  the mask is set, zero elsewhere) and rounds them, re-lays the bias as a one-row matrix, and takes the batch's columns
  by the index row. Each of the four arrays is the corresponding term of the argument arrays.
-/
import proofs.«130809_j54975581388937_1_alg».proof.Proof.Gen.KernelIdeal.Frame
import proofs.«130809_j54975581388937_1_alg».proof.Proof.TakeSpec
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- The batch window's array: the batch, rounded. -/
theorem batch_eq (c : Dev nD) :
    (V m c main_v2 : S4096x4096.Idx → F .bf16)
      = truncf .bf16 (m ((c : Thread nD τ).loc main_arg0) : S4096x4096.Idx → F .f32) bitsLt_bf16_f32 := by
  dsimp only [V]
  simp only [hostOps0, hostOps0_1, hostOps0_2, hostOps0_3, List.flatten_cons, List.flatten_nil, List.append_nil, List.cons_append,
    List.nil_append]
  after_results
  try rfl

/-- The weight window's array: the weight where the mask is set, the zero word's value elsewhere, rounded. -/
theorem weights_eq (c : Dev nD) :
    (V m c main_v1 : S4096x4096.Idx → F .bf16)
      = truncf .bf16 (select (m ((c : Thread nD τ).loc main_arg3) : S4096x4096.Idx → BitVec 1)
          (m ((c : Thread nD τ).loc main_arg1) : S4096x4096.Idx → F .f32)
          (broadcastInDim S4096x4096 ![] bcast_S_S4096x4096 (id (constant (F := F) S_ .f32 0x00000000#32)))) bitsLt_bf16_f32 := by
  dsimp only [V]
  simp only [hostOps0, hostOps0_1, hostOps0_2, hostOps0_3, List.flatten_cons, List.flatten_nil, List.append_nil, List.cons_append,
    List.nil_append]
  after_results
  try rfl

/-- The bias window's array: the bias row re-laid as a 1 × 4096 matrix. -/
theorem bias_eq (c : Dev nD) :
    (V m c main_v3 : S1x4096.Idx → F .f32)
      = shapeCast S1x4096 (m ((c : Thread nD τ).loc main_arg2) : S4096.Idx → F .f32) shapeCasts_S4096_S1x4096 := by
  dsimp only [V]
  simp only [hostOps0, hostOps0_1, hostOps0_2, hostOps0_3, List.flatten_cons, List.flatten_nil, List.append_nil, List.cons_append,
    List.nil_append]
  after_results
  try rfl

attribute [local irreducible] Host.reduce Host.gather in
set_option maxRecDepth 8192 in
/-- The residual window's array: the batch's columns taken by the index row. -/
theorem residual_eq (c : Dev nD) :
    (V m c main_v4 : S4096x4096.Idx → F .f32)
      = MaskedLinear.takeCols (m ((c : Thread nD τ).loc main_arg0) : S4096x4096.Idx → F .f32)
          (m ((c : Thread nD τ).loc main_arg4) : S4096.Idx → BitVec 32) := by
  dsimp only [V]
  simp only [hostOps0, hostOps0_1, hostOps0_2, hostOps0_3, List.flatten_cons, List.flatten_nil, List.append_nil, List.cons_append,
    List.nil_append]
  after_results_simp
  rfl

end Cert.KernelIdeal.HostSide

end
-- ==== Proof.Layer.lean ====
/-
  The layer as one function of the five argument arrays, and when two readings of the result agree.

  With the masked weights (the weight where the mask bit is set, the zero word's value elsewhere), the bias read as a
  row, and the batch's columns taken by the index row as the residual, the result is `layer x w b mask tk`. The result
  reads its four arrays only at the batch's and weights' entries, the bias row's entries and the residual's entries, so
  two quadruples agreeing there give the same result.
-/
import proofs.«130809_j54975581388937_1_alg».proof.Proof.TakeSpec

noncomputable section

namespace MaskedLinear

open Idealize.ShloMosaic Idealize.ShloMosaic.ValueIdx

/-- The result reads its arrays entry by entry. -/
theorem out_congr {a a' wm wm' : SQ.Idx → EReal} {b2 b2' : SRow.Idx → EReal} {tk tk' : SQ.Idx → EReal}
    (ha : ∀ i, a i = a' i) (hw : ∀ i, wm i = wm' i) (hb : ∀ j : Fin 4096, b2 (ix2 (0 : Fin 1) j) = b2' (ix2 (0 : Fin 1) j))
    (ht : ∀ i, tk i = tk' i) : out a wm b2 tk = out a' wm' b2' tk' := by
  funext ij
  obtain ⟨i, j, rfl⟩ : ∃ (i j : Fin 4096), ij = ix2 i j := ⟨ij 0, ij 1, eq_ix2 ij⟩
  rw [out_ix2, out_ix2]
  unfold entry
  rw [hb j, ht (ix2 i j)]
  refine congrArg (fun s => max (s + b2' (ix2 (0 : Fin 1) j)) zeroWord + tk' (ix2 i j)) ?_
  exact Finset.sum_congr rfl fun k _ => by rw [ha (ix2 i k), hw (ix2 j k)]

/-- The layer: entry (i, j) is max (∑ₖ x(i, k) · (mask(j, k) ? w(j, k) : 0) + b(j), 0) + tk(i, j). -/
def layer (x w : SQ.Idx → EReal) (b : SVec.Idx → EReal) (mask : SQ.Idx → BitVec 1) (tk : SQ.Idx → EReal) : SQ.Idx → EReal :=
  out x (fun i => Scalar.select (mask i) (w i) zeroWord) (fun i => b (ix1 (i 1))) tk

end MaskedLinear

end
-- ==== Proof.KernelValue.lean ====
/-
  The kernel's result array as the layer of the five argument arrays.

  The four arrays the windows read are the rounded batch, the rounded masked weights, the bias as a one-row matrix and
  the batch's columns taken by the index row. At the ideal values rounding changes nothing, the masked weights read
  entry by entry are the weight or the zero word's value, and the one-row matrix at (0, j) is the bias at j: the
  result array is the layer with the taken columns as the residual.
-/
import proofs.«130809_j54975581388937_1_alg».proof.Proof.KernelArray
import proofs.«130809_j54975581388937_1_alg».proof.Proof.KernelHost
import proofs.«130809_j54975581388937_1_alg».proof.Proof.Layer
import Idealize.ShloMosaic.Lib.ValueLayout

noncomputable section

namespace Cert.KernelIdeal.Whole

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The whole-array function of the windows' arrays is the layer of the arguments. -/
theorem whole_eq_layer (c : Dev nD) :
    whole m c = MaskedLinear.layer (m ((c : Thread nD τ).loc main_arg0)) (m ((c : Thread nD τ).loc main_arg1))
      (m ((c : Thread nD τ).loc main_arg2)) (m ((c : Thread nD τ).loc main_arg3))
      (MaskedLinear.takeCols (F := Ideal) (m ((c : Thread nD τ).loc main_arg0)) (m ((c : Thread nD τ).loc main_arg4))) := by
  unfold whole MaskedLinear.layer
  rw [HostSide.batch_eq m c, HostSide.weights_eq m c, HostSide.bias_eq m c, HostSide.residual_eq m c]
  refine MaskedLinear.out_congr (fun i => rfl) (fun i => rfl) (fun j => ?_) (fun i => rfl)
  exact shapeCast_a_1a_apply _ _ (0 : Fin 1) j

/-- The kernel's run, read: the result array at the layer of the arguments, the arguments unchanged. -/
theorem run_layer : θ_run defs (onTc (τ := τ) (main (F := Ideal))) ⟨m, fun _ => 0, ρ⟩ fun r => ∀ c : Dev nD,
      r.2.mem ((c : Thread nD τ).loc main_v5)
        = MaskedLinear.layer (m ((c : Thread nD τ).loc main_arg0)) (m ((c : Thread nD τ).loc main_arg1))
            (m ((c : Thread nD τ).loc main_arg2)) (m ((c : Thread nD τ).loc main_arg3))
            (MaskedLinear.takeCols (F := Ideal) (m ((c : Thread nD τ).loc main_arg0)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (whole_eq_layer m c), (h c).2⟩) (run m ρ)

end Cert.KernelIdeal.Whole

end
-- ==== Proof.RefRun.lean ====
/-
  The reference program's run, read back.

  The reference is a straight line of 36 host operations once its three outlined functions (the masking select, the
  cut at zero, the column take) are written out at their calls: the masked weights, their transpose, the product of the
  batch with it, the bias broadcast over the rows and added, the cut at zero, the columns taken by the index row, and the
  final sum. Every execution runs them in order, so the result buffer ends at their composed term of the argument
  arrays, and no operation writes an argument.
-/
import proofs.«130809_j54975581388937_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each outlined function's operations in place of its call. -/
abbrev ops : List (HloOp τ sig (Elt F)) :=
  [ nullary main_cst (constant S_ .f32 0x00000000#32),
    TRef.unary (.of main_cst : TRef sig ⟨S_, .f32⟩) (.of main_call0_v0 : TRef sig ⟨S_, .f32⟩) id,
    TRef.unary (.of main_call0_v0 : TRef sig ⟨S_, .f32⟩) (.of main_call0_v1 : TRef sig ⟨S4096x4096, .f32⟩) (broadcastInDim S4096x4096 ![] bcast_S_S4096x4096),
    TRef.ternary (.of main_arg3 : TRef sig ⟨S4096x4096, .i1⟩) (.of main_arg1 : TRef sig ⟨S4096x4096, .f32⟩) (.of main_call0_v1 : TRef sig ⟨S4096x4096, .f32⟩) (.of main_v0 : TRef sig ⟨S4096x4096, .f32⟩) select,
    unary main_v0 main_v1 ((transpose S4096x4096 [1, 0] · transposes_S4096x4096_S4096x4096_1_0) : (⟨S4096x4096, .f32⟩ : BufTy).Contents (Elt F) → (⟨S4096x4096, .f32⟩ : BufTy).Contents (Elt F)),
    binary main_arg0 main_v1 main_v2 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_v2 main_v4 main_v5 (addf : (⟨S4096x4096, .f32⟩ : BufTy).Contents (Elt F) → (⟨S4096x4096, .f32⟩ : BufTy).Contents (Elt F) → (⟨S4096x4096, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S4096x4096, .f32⟩) (broadcastInDim S4096x4096 ![] bcast_S_S4096x4096),
    TRef.binary (.of main_v5 : TRef sig ⟨S4096x4096, .f32⟩) (.of main_call1_v0 : TRef sig ⟨S4096x4096, .f32⟩) (.of main_v6 : TRef sig ⟨S4096x4096, .f32⟩) maximumf,
    TRef.nullary (.of main_call2_c : TRef sig ⟨S_, .i32⟩) (constantI S_ 32 0#32),
    TRef.unary (.of main_call2_c : TRef sig ⟨S_, .i32⟩) (.of main_call2_v0 : TRef sig ⟨S4096, .i32⟩) (broadcastInDim S4096 ![] bcast_S_S4096),
    TRef.binary (.of main_arg4 : TRef sig ⟨S4096, .i32⟩) (.of main_call2_v0 : TRef sig ⟨S4096, .i32⟩) (.of main_call2_v1 : TRef sig ⟨S4096, .i1⟩) (cmpi .slt),
    TRef.nullary (.of main_call2_c_0 : TRef sig ⟨S_, .i32⟩) (constantI S_ 32 4096#32),
    TRef.unary (.of main_call2_c_0 : TRef sig ⟨S_, .i32⟩) (.of main_call2_v2 : TRef sig ⟨S4096, .i32⟩) (broadcastInDim S4096 ![] bcast_S_S4096),
    TRef.binary (.of main_arg4 : TRef sig ⟨S4096, .i32⟩) (.of main_call2_v2 : TRef sig ⟨S4096, .i32⟩) (.of main_call2_v3 : TRef sig ⟨S4096, .i32⟩) addi,
    TRef.ternary (.of main_call2_v1 : TRef sig ⟨S4096, .i1⟩) (.of main_call2_v3 : TRef sig ⟨S4096, .i32⟩) (.of main_arg4 : TRef sig ⟨S4096, .i32⟩) (.of main_call2_v4 : TRef sig ⟨S4096, .i32⟩) select,
    TRef.unary (.of main_call2_v4 : TRef sig ⟨S4096, .i32⟩) (.of main_call2_v5 : TRef sig ⟨S4096x1, .i32⟩) (broadcastInDim S4096x1 ![0] bcast_S4096_S4096x1_0),
    TRef.nullary (.of main_call2_c_1 : TRef sig ⟨S1, .i32⟩) (constantI S1 32 4095#32),
    TRef.nullary (.of main_call2_c_2 : TRef sig ⟨S_, .i32⟩) (constantI S_ 32 0#32),
    TRef.unary (.of main_call2_c_2 : TRef sig ⟨S_, .i32⟩) (.of main_call2_v6 : TRef sig ⟨S4096x1, .i32⟩) (broadcastInDim S4096x1 ![] bcast_S_S4096x1),
    TRef.binary (.of main_call2_v5 : TRef sig ⟨S4096x1, .i32⟩) (.of main_call2_v6 : TRef sig ⟨S4096x1, .i32⟩) (.of main_call2_v7 : TRef sig ⟨S4096x1, .i1⟩) (cmpi .sge),
    TRef.unary (.of main_call2_c_1 : TRef sig ⟨S1, .i32⟩) (.of main_call2_v8 : TRef sig ⟨S1x1, .i32⟩) (broadcastInDim S1x1 ![1] bcast_S1_S1x1_1),
    TRef.unary (.of main_call2_v8 : TRef sig ⟨S1x1, .i32⟩) (.of main_call2_v9 : TRef sig ⟨S4096x1, .i32⟩) (broadcastInDim S4096x1 ![0, 1] bcast_S1x1_S4096x1_0_1),
    TRef.binary (.of main_call2_v5 : TRef sig ⟨S4096x1, .i32⟩) (.of main_call2_v9 : TRef sig ⟨S4096x1, .i32⟩) (.of main_call2_v10 : TRef sig ⟨S4096x1, .i1⟩) (cmpi .sle),
    TRef.binary (.of main_call2_v7 : TRef sig ⟨S4096x1, .i1⟩) (.of main_call2_v10 : TRef sig ⟨S4096x1, .i1⟩) (.of main_call2_v11 : TRef sig ⟨S4096x1, .i1⟩) andi,
    TRef.nullary (.of main_call2_c_3 : TRef sig ⟨S_, .i1⟩) (constantI S_ 1 1#1),
    TRef.binary (.of main_call2_v11 : TRef sig ⟨S4096x1, .i1⟩) (.of main_call2_c_3 : TRef sig ⟨S_, .i1⟩) (.of main_call2_v12 : TRef sig ⟨S4096, .i1⟩) (fun x v => Host.reduce IntOp.andi x v reducesTo_S4096x1_S4096_d1 h_S_),
    TRef.binary (.of main_arg0 : TRef sig ⟨S4096x4096, .f32⟩) (.of main_call2_v5 : TRef sig ⟨S4096x1, .i32⟩) (.of main_call2_v13 : TRef sig ⟨S4096x4096, .f32⟩) (fun x i => Host.gather gather_S4096x4096_S4096x1_S4096x4096_0_1_n_n_1_1_40961 x i),
    TRef.unary (.of main_call2_v12 : TRef sig ⟨S4096, .i1⟩) (.of main_call2_v14 : TRef sig ⟨S4096x4096, .i1⟩) (broadcastInDim S4096x4096 ![1] bcast_S4096_S4096x4096_1),
    TRef.nullary (.of main_call2_cst : TRef sig ⟨S_, .f32⟩) (constant S_ .f32 0x7FC00000#32),
    TRef.unary (.of main_call2_cst : TRef sig ⟨S_, .f32⟩) (.of main_call2_v15 : TRef sig ⟨S4096x4096, .f32⟩) (broadcastInDim S4096x4096 ![] bcast_S_S4096x4096),
    TRef.ternary (.of main_call2_v14 : TRef sig ⟨S4096x4096, .i1⟩) (.of main_call2_v13 : TRef sig ⟨S4096x4096, .f32⟩) (.of main_call2_v15 : TRef sig ⟨S4096x4096, .f32⟩) (.of main_v7 : TRef sig ⟨S4096x4096, .f32⟩) select,
    binary main_v7 main_v6 main_v8 (addf : (⟨S4096x4096, .f32⟩ : BufTy).Contents (Elt F) → (⟨S4096x4096, .f32⟩ : BufTy).Contents (Elt F) → (⟨S4096x4096, .f32⟩ : BufTy).Contents (Elt F)) ]

set_option maxRecDepth 4096 in
/-- The program is that straight line: the functions unfolded at their calls, the sequencing re-associated. -/
theorem main_eq (c : Dev nD) : main (F := F) c = seq ops := by
  simp only [main, fn_where.body, fn_relu.body, fn_take.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- Every execution terminates with each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.RefValue.lean ====
/-
  What the reference computes, as one term and entry by entry.

  The reference's result buffer ends at: the batch's columns taken by the index row, plus the cut at zero of (the batch
  times the transpose of the masked weights, plus the bias broadcast over the rows). At the ideal values entry (i, j) of
  the product with the transpose is ∑ₖ x(i, k) · wm(j, k), the broadcast bias is b(j), and extended-real addition
  commutes, so the term is the layer.
-/
import proofs.«130809_j54975581388937_1_alg».proof.Proof.RefRun
import proofs.«130809_j54975581388937_1_alg».proof.Proof.Layer
import proofs.«130809_j54975581388937_1_alg».proof.Proof.LibHostDot
import Idealize.ShloMosaic.Lib.Pipeline.Value
import Idealize.ShloMosaic.Lib.ValueLayout

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The masked weights: the weight where the mask bit is set, the zero word's value elsewhere. -/
def maskedWeights (w : FVec F S4096x4096 .f32) (mask : IVec S4096x4096 1) : FVec F S4096x4096 .f32 :=
  select mask w (broadcastInDim S4096x4096 ![] bcast_S_S4096x4096 (id (constant (F := F) S_ .f32 0x00000000#32)))

/-- The result buffer's term of the five argument arrays. -/
def resultTerm (x w : FVec F S4096x4096 .f32) (b : FVec F S4096 .f32) (mask : IVec S4096x4096 1) (rc : IVec S4096 32) :
    FVec F S4096x4096 .f32 :=
  addf (MaskedLinear.takeCols x rc)
    (maximumf
      (addf
        (Host.dotGeneral dot_S4096x4096_S4096x4096_S4096x4096_1_0_0_1_n_n none x
          (transpose S4096x4096 [1, 0] (maskedWeights w mask) transposes_S4096x4096_S4096x4096_1_0))
        (broadcastInDim S4096x4096 ![0, 1] bcast_S1x4096_S4096x4096_0_1 (broadcastInDim S1x4096 ![1] bcast_S4096_S1x4096_1 b)))
      (broadcastInDim S4096x4096 ![] bcast_S_S4096x4096 (constant (F := F) S_ .f32 0x00000000#32)))

attribute [local irreducible] Host.reduce Host.gather in
set_option maxRecDepth 8192 in
/-- The fold of the 36 operations at the result buffer is that term of the launch contents. -/
theorem result_eq (m : (ℓ : Loc nD τ sig) → Buf (Elt F) ℓ) (c : Dev nD) :
    (after ops (launchContents m c) (main_v8 : DevRef τ sig) : S4096x4096.Idx → F .f32)
      = resultTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  after_results_simp
  rfl

/-- The run, read: the result buffer at `resultTerm` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = resultTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v8).trans (result_eq m c),
      (h c main_arg0).trans (by after_results_simp),
      (h c main_arg1).trans (by after_results_simp),
      (h c main_arg2).trans (by after_results_simp),
      (h c main_arg3).trans (by after_results_simp),
      (h c main_arg4).trans (by after_results_simp)⟩)
    (run_fold m ρ)

/-- At the ideal values the reference's term is the layer with the taken columns as the residual. -/
theorem resultTerm_eq_layer (x w : FVec Ideal S4096x4096 .f32) (b : FVec Ideal S4096 .f32) (mask : IVec S4096x4096 1)
    (rc : IVec S4096 32) :
    resultTerm (F := Ideal) x w b mask rc = MaskedLinear.layer x w b mask (MaskedLinear.takeCols x rc) := by
  funext ij
  obtain ⟨i, j, rfl⟩ : ∃ (i j : Fin 4096), ij = ix2 i j := ⟨ij 0, ij 1, eq_ix2 ij⟩
  have hdot : Host.dotGeneral dot_S4096x4096_S4096x4096_S4096x4096_1_0_0_1_n_n none x
        (transpose S4096x4096 [1, 0] (maskedWeights (F := Ideal) w mask) transposes_S4096x4096_S4096x4096_1_0) (ix2 i j)
      = ∑ k : Fin 4096, x (ix2 i k) * Scalar.select (mask (ix2 j k)) (w (ix2 j k)) MaskedLinear.zeroWord := by
    rw [HostDot.dotGeneral_apply dot_S4096x4096_S4096x4096_S4096x4096_1_0_0_1_n_n rfl rfl rfl rfl rfl rfl none x _ i j]
    refine Finset.sum_congr rfl fun k _ => ?_
    rw [transpose_ix2_apply]
    rfl
  have hbias : broadcastInDim S4096x4096 ![0, 1] bcast_S1x4096_S4096x4096_0_1
        (broadcastInDim S1x4096 ![1] bcast_S4096_S1x4096_1 b) (ix2 i j) = b (ix1 j) := by
    rw [broadcastInDim_apply _ _ _ (ix2 i j) (ix2 (0 : Fin 1) j) (fun a => match a with | ⟨0, _⟩ => rfl | ⟨1, _⟩ => rfl),
      broadcastInDim_apply _ _ _ (ix2 (0 : Fin 1) j) (ix1 j) (fun a => match a with | ⟨0, _⟩ => rfl)]
  have hzero : broadcastInDim S4096x4096 ![] bcast_S_S4096x4096 (constant (F := Ideal) S_ .f32 0x00000000#32) (ix2 i j)
      = MaskedLinear.zeroWord := rfl
  unfold resultTerm MaskedLinear.layer
  rw [MaskedLinear.out_ix2]
  unfold MaskedLinear.entry
  rw [addf_apply, maximumf_apply, addf_apply, hdot, hbias, hzero]
  exact add_comm _ _

end Cert.ReferenceIdeal.Hand

end
-- ==== Proof.lean ====
/-
  The masked linear layer with a gathered residual: the kernel against its reference, over the extended reals.

  Both programs compute, for a batch x, weights w, a bias b, a mask and an index row rc,

      out(i, j) = max (∑ₖ x(i, k) · (mask(j, k) ? w(j, k) : 0) + b(j), 0) + x(i, rc(j)),

  the last term being the batch's columns taken by the index row (one shared term of host operations, never opened).
  The kernel rounds the batch and the masked weights to a narrow float format first, which changes nothing at the
  ideal values; it computes the product tile by tile (512 rows × 1024 columns per grid point, the whole contraction
  in one product), adds the bias, cuts at zero and adds the residual tile. The reference transposes the masked
  weights, multiplies, adds the broadcast bias, cuts at zero and adds the taken columns on the LEFT. The two results
  agree entry by entry: the same sum over k, and a commuted final addition. No finiteness of the inputs is used.
  The idealization rewrote nothing, so there is nothing to preserve.
-/
import proofs.«130809_j54975581388937_1_alg».proof.Defs
import proofs.«130809_j54975581388937_1_alg».proof.Proof.Gen.Kernel
import proofs.«130809_j54975581388937_1_alg».proof.Proof.Gen.Kernel.Skeleton
import proofs.«130809_j54975581388937_1_alg».proof.Proof.Gen.Kernel.Launch
import proofs.«130809_j54975581388937_1_alg».proof.Proof.Gen.Kernel.Points
import proofs.«130809_j54975581388937_1_alg».proof.Proof.Gen.Kernel.Frame
import proofs.«130809_j54975581388937_1_alg».proof.Proof.Gen.KernelIdeal
import proofs.«130809_j54975581388937_1_alg».proof.Proof.Gen.KernelIdeal.Skeleton
import proofs.«130809_j54975581388937_1_alg».proof.Proof.Gen.KernelIdeal.Launch
import proofs.«130809_j54975581388937_1_alg».proof.Proof.Gen.KernelIdeal.Points
import proofs.«130809_j54975581388937_1_alg».proof.Proof.Gen.KernelIdeal.Frame
import proofs.«130809_j54975581388937_1_alg».proof.Proof.Gen.KernelIdeal.Value
import proofs.«130809_j54975581388937_1_alg».proof.Proof.Gen.ReferenceIdeal
import proofs.«130809_j54975581388937_1_alg».proof.Proof.Gen.Pre_finite_inputs
import proofs.«130809_j54975581388937_1_alg».proof.Proof.KernelValue
import proofs.«130809_j54975581388937_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the five arguments both programs end with the layer of those arguments: the kernel by
    its tiles, the reference by its term read entry by entry. -/
theorem algebraic : Cert.algebraic_KernelIdeal_ReferenceIdeal := by
  intro m ρ m' ρ' _ hagree
  refine ⟨_, Cert.KernelIdeal.Whole.run_layer m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.resultTerm_eq_layer]
  obtain ⟨e0, e1, e2, e3, e4⟩ := hagree c
  rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
